-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x625000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x625000 : Shape := ⟨2, ![1, 625000]⟩
abbrev S625000 : Shape := ⟨1, ![625000]⟩
abbrev S675000 : Shape := ⟨1, ![675000]⟩
abbrev S_ : Shape := ⟨0, ![]⟩
abbrev S675000x1 : Shape := ⟨2, ![675000, 1]⟩
abbrev S5000x128 : Shape := ⟨2, ![5000, 128]⟩
abbrev S675000x128 : Shape := ⟨2, ![675000, 128]⟩
abbrev S1x128 : Shape := ⟨2, ![1, 128]⟩
abbrev S50000x40 : Shape := ⟨2, ![50000, 40]⟩
abbrev S5000x40 : Shape := ⟨2, ![5000, 40]⟩
abbrev S675000x40 : Shape := ⟨2, ![675000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 78
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x625000, .i32⟩
  | .hbm, ⟨8, _⟩ => ⟨S625000, .i32⟩
  | .hbm, ⟨9, _⟩ => ⟨S675000, .i32⟩
  | .hbm, ⟨10, _⟩ => ⟨S1x625000, .i32⟩
  | .hbm, ⟨11, _⟩ => ⟨S625000, .i32⟩
  | .hbm, ⟨12, _⟩ => ⟨S675000, .i32⟩
  | .hbm, ⟨13, _⟩ => ⟨S_, .f32⟩
  | .hbm, ⟨14, _⟩ => ⟨S675000, .f32⟩
  | .hbm, ⟨15, _⟩ => ⟨S_, .f32⟩
  | .hbm, ⟨16, _⟩ => ⟨S50000, .f32⟩
  | .hbm, ⟨17, _⟩ => ⟨S675000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S675000, .i32⟩
  | .hbm, ⟨22, _⟩ => ⟨S675000, .i1⟩
  | .hbm, ⟨23, _⟩ => ⟨S_, .i32⟩
  | .hbm, ⟨24, _⟩ => ⟨S675000, .i32⟩
  | .hbm, ⟨25, _⟩ => ⟨S675000, .i32⟩
  | .hbm, ⟨26, _⟩ => ⟨S675000, .i32⟩
  | .hbm, ⟨27, _⟩ => ⟨S675000x1, .i32⟩
  | .hbm, ⟨28, _⟩ => ⟨S675000, .f32⟩
  | .hbm, ⟨29, _⟩ => ⟨S_, .i32⟩
  | .hbm, ⟨30, _⟩ => ⟨S675000, .i32⟩
  | .hbm, ⟨31, _⟩ => ⟨S675000, .i1⟩
  | .hbm, ⟨32, _⟩ => ⟨S_, .i32⟩
  | .hbm, ⟨33, _⟩ => ⟨S675000, .i32⟩
  | .hbm, ⟨34, _⟩ => ⟨S675000, .i32⟩
  | .hbm, ⟨35, _⟩ => ⟨S675000, .i32⟩
  | .hbm, ⟨36, _⟩ => ⟨S675000x1, .i32⟩
  | .hbm, ⟨37, _⟩ => ⟨S675000, .f32⟩
  | .hbm, ⟨38, _⟩ => ⟨S675000, .f32⟩
  | .hbm, ⟨39, _⟩ => ⟨S50000x128, .bf16⟩
  | .hbm, ⟨40, _⟩ => ⟨S_, .i32⟩
  | .hbm, ⟨41, _⟩ => ⟨S675000, .i32⟩
  | .hbm, ⟨42, _⟩ => ⟨S675000, .i1⟩
  | .hbm, ⟨43, _⟩ => ⟨S_, .i32⟩
  | .hbm, ⟨44, _⟩ => ⟨S675000, .i32⟩
  | .hbm, ⟨45, _⟩ => ⟨S675000, .i32⟩
  | .hbm, ⟨46, _⟩ => ⟨S675000, .i32⟩
  | .hbm, ⟨47, _⟩ => ⟨S675000x1, .i32⟩
  | .hbm, ⟨48, _⟩ => ⟨S675000x128, .bf16⟩
  | .hbm, ⟨49, _⟩ => ⟨S675000x128, .f32⟩
  | .hbm, ⟨50, _⟩ => ⟨S675000x1, .f32⟩
  | .hbm, ⟨51, _⟩ => ⟨S675000x128, .f32⟩
  | .hbm, ⟨52, _⟩ => ⟨S675000x128, .f32⟩
  | .hbm, ⟨53, _⟩ => ⟨S_, .f32⟩
  | .hbm, ⟨54, _⟩ => ⟨S50000x128, .f32⟩
  | .hbm, ⟨55, _⟩ => ⟨S675000x1, .i32⟩
  | .hbm, ⟨56, _⟩ => ⟨S50000x128, .f32⟩
  | .hbm, ⟨57, _⟩ => ⟨S1x128, .f32⟩
  | .hbm, ⟨58, _⟩ => ⟨S50000x40, .bf16⟩
  | .hbm, ⟨59, _⟩ => ⟨S_, .i32⟩
  | .hbm, ⟨60, _⟩ => ⟨S675000, .i32⟩
  | .hbm, ⟨61, _⟩ => ⟨S675000, .i1⟩
  | .hbm, ⟨62, _⟩ => ⟨S_, .i32⟩
  | .hbm, ⟨63, _⟩ => ⟨S675000, .i32⟩
  | .hbm, ⟨64, _⟩ => ⟨S675000, .i32⟩
  | .hbm, ⟨65, _⟩ => ⟨S675000, .i32⟩
  | .hbm, ⟨66, _⟩ => ⟨S675000x1, .i32⟩
  | .hbm, ⟨67, _⟩ => ⟨S675000x40, .bf16⟩
  | .hbm, ⟨68, _⟩ => ⟨S675000x40, .f32⟩
  | .hbm, ⟨69, _⟩ => ⟨S675000x1, .f32⟩
  | .hbm, ⟨70, _⟩ => ⟨S675000x40, .f32⟩
  | .hbm, ⟨71, _⟩ => ⟨S675000x40, .f32⟩
  | .hbm, ⟨72, _⟩ => ⟨S_, .f32⟩
  | .hbm, ⟨73, _⟩ => ⟨S50000x40, .f32⟩
  | .hbm, ⟨74, _⟩ => ⟨S675000x1, .i32⟩
  | .hbm, ⟨75, _⟩ => ⟨S50000x40, .f32⟩
  | .hbm, ⟨76, _⟩ => ⟨S1x40, .f32⟩
  | .hbm, ⟨77, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x40, .f32⟩
  | .local _ .vmem, ⟨9, _⟩ => ⟨S5000x40, .bf16⟩
  | .local _ .vmem, ⟨10, _⟩ => ⟨S5000x40, .bf16⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x625000_S1x625000_0_0 : S2x625000.Slices ![0, 0] S1x625000
  shapeCasts_S1x625000_S625000 : S1x625000.ShapeCasts S625000
  concatenates_S625000_S50000_S675000_d0 : Shape.Concatenates [S625000, S50000] S675000 0
  slices_S2x625000_S1x625000_1_0 : S2x625000.Slices ![1, 0] S1x625000
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  packedbf16_S5000x40_S5000x40_0_0 : (Rect.unit (s := S5000x40) ![0, 0] S5000x40.size inb_S5000x40_S5000x40_0_0).PackedRows (EltTy.packing .bf16)
  bcast_S675000x1_S675000x40_0_1 : S675000x1.BroadcastsInDim S675000x40 (![0, 1] : Fin 2 → Fin S675000x40.rank)
  bcast_S_S50000x40 : S_.BroadcastsInDim S50000x40 (![] : Fin 0 → Fin S50000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S5000x128_S128x128_S5000x128_1_0_0_1_n_n_wf : DotDims.WF S5000x128 S128x128 S5000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  dot_S5000x128_S128x40_S5000x40_1_0_0_1_n_n_wf : DotDims.WF S5000x128 S128x40 S5000x40 [1] [0] [0] [1] [] []
  gather_S50000x40_S675000x1_S675000x40_1_0_n_n_0_1_140_wf : GatherDims.WF S50000x40 S675000x1 S675000x40 [1] [0] [] [0] [] 1 ![1, 40]
  scatter_S50000x40_S675000x1_S675000x40_1_0_0_1_wf : ScatterDims.WF S50000x40 S675000x1 S675000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S50000x40.size a
  hwx1_3 : ∀ i : grid1.Coords, EltTy.bits .bf16 = 32 ∨ (Rect.block (s := S50000x40) S5000x40.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S675000x1_S675000x40_1_0_n_n_0_1_140 : GatherDims S50000x40 S675000x1 S675000x40 where
  offsetDims := [1]
  collapsedSliceDims := [0]
  operandBatchingDims := []
  startIndicesBatchingDims := []
  startIndexMap := [0]
  indexVectorDim := 1
  sliceSizes := ![1, 40]
  wf := gather_S50000x40_S675000x1_S675000x40_1_0_n_n_0_1_140_wf
def scatter_S50000x40_S675000x1_S675000x40_1_0_0_1 : ScatterDims S50000x40 S675000x1 S675000x40 where
  updateWindowDims := [1]
  insertedWindowDims := [0]
  scatterDimsToOperandDims := [0]
  indexVectorDim := 1
  wf := scatter_S50000x40_S675000x1_S675000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x625000 : Shape := ⟨2, ![1, 625000]⟩
abbrev S625000 : Shape := ⟨1, ![625000]⟩
abbrev S675000 : Shape := ⟨1, ![675000]⟩
abbrev S_ : Shape := ⟨0, ![]⟩
abbrev S675000x1 : Shape := ⟨2, ![675000, 1]⟩
abbrev S675000x128 : Shape := ⟨2, ![675000, 128]⟩
abbrev S1x128 : Shape := ⟨2, ![1, 128]⟩
abbrev S50000x40 : Shape := ⟨2, ![50000, 40]⟩
abbrev S675000x40 : Shape := ⟨2, ![675000, 40]⟩
abbrev S1x40 : Shape := ⟨2, ![1, 40]⟩
abbrev S50000x1 : Shape := ⟨2, ![50000, 1]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x625000, .i32⟩
  | .hbm, ⟨8, _⟩ => ⟨S625000, .i32⟩
  | .hbm, ⟨9, _⟩ => ⟨S675000, .i32⟩
  | .hbm, ⟨10, _⟩ => ⟨S1x625000, .i32⟩
  | .hbm, ⟨11, _⟩ => ⟨S625000, .i32⟩
  | .hbm, ⟨12, _⟩ => ⟨S675000, .i32⟩
  | .hbm, ⟨13, _⟩ => ⟨S_, .f32⟩
  | .hbm, ⟨14, _⟩ => ⟨S675000, .f32⟩
  | .hbm, ⟨15, _⟩ => ⟨S_, .f32⟩
  | .hbm, ⟨16, _⟩ => ⟨S50000, .f32⟩
  | .hbm, ⟨17, _⟩ => ⟨S675000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S675000, .i32⟩
  | .hbm, ⟨22, _⟩ => ⟨S675000, .i1⟩
  | .hbm, ⟨23, _⟩ => ⟨S_, .i32⟩
  | .hbm, ⟨24, _⟩ => ⟨S675000, .i32⟩
  | .hbm, ⟨25, _⟩ => ⟨S675000, .i32⟩
  | .hbm, ⟨26, _⟩ => ⟨S675000, .i32⟩
  | .hbm, ⟨27, _⟩ => ⟨S675000x1, .i32⟩
  | .hbm, ⟨28, _⟩ => ⟨S675000, .f32⟩
  | .hbm, ⟨29, _⟩ => ⟨S_, .i32⟩
  | .hbm, ⟨30, _⟩ => ⟨S675000, .i32⟩
  | .hbm, ⟨31, _⟩ => ⟨S675000, .i1⟩
  | .hbm, ⟨32, _⟩ => ⟨S_, .i32⟩
  | .hbm, ⟨33, _⟩ => ⟨S675000, .i32⟩
  | .hbm, ⟨34, _⟩ => ⟨S675000, .i32⟩
  | .hbm, ⟨35, _⟩ => ⟨S675000, .i32⟩
  | .hbm, ⟨36, _⟩ => ⟨S675000x1, .i32⟩
  | .hbm, ⟨37, _⟩ => ⟨S675000, .f32⟩
  | .hbm, ⟨38, _⟩ => ⟨S675000, .f32⟩
  | .hbm, ⟨39, _⟩ => ⟨S50000x128, .f32⟩
  | .hbm, ⟨40, _⟩ => ⟨S_, .i32⟩
  | .hbm, ⟨41, _⟩ => ⟨S675000, .i32⟩
  | .hbm, ⟨42, _⟩ => ⟨S675000, .i1⟩
  | .hbm, ⟨43, _⟩ => ⟨S_, .i32⟩
  | .hbm, ⟨44, _⟩ => ⟨S675000, .i32⟩
  | .hbm, ⟨45, _⟩ => ⟨S675000, .i32⟩
  | .hbm, ⟨46, _⟩ => ⟨S675000, .i32⟩
  | .hbm, ⟨47, _⟩ => ⟨S675000x1, .i32⟩
  | .hbm, ⟨48, _⟩ => ⟨S675000x128, .f32⟩
  | .hbm, ⟨49, _⟩ => ⟨S675000x1, .f32⟩
  | .hbm, ⟨50, _⟩ => ⟨S675000x128, .f32⟩
  | .hbm, ⟨51, _⟩ => ⟨S675000x128, .f32⟩
  | .hbm, ⟨52, _⟩ => ⟨S_, .f32⟩
  | .hbm, ⟨53, _⟩ => ⟨S50000x128, .f32⟩
  | .hbm, ⟨54, _⟩ => ⟨S675000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x40, .f32⟩
  | .hbm, ⟨63, _⟩ => ⟨S_, .i32⟩
  | .hbm, ⟨64, _⟩ => ⟨S675000, .i32⟩
  | .hbm, ⟨65, _⟩ => ⟨S675000, .i1⟩
  | .hbm, ⟨66, _⟩ => ⟨S_, .i32⟩
  | .hbm, ⟨67, _⟩ => ⟨S675000, .i32⟩
  | .hbm, ⟨68, _⟩ => ⟨S675000, .i32⟩
  | .hbm, ⟨69, _⟩ => ⟨S675000, .i32⟩
  | .hbm, ⟨70, _⟩ => ⟨S675000x1, .i32⟩
  | .hbm, ⟨71, _⟩ => ⟨S675000x40, .f32⟩
  | .hbm, ⟨72, _⟩ => ⟨S675000x1, .f32⟩
  | .hbm, ⟨73, _⟩ => ⟨S675000x40, .f32⟩
  | .hbm, ⟨74, _⟩ => ⟨S675000x40, .f32⟩
  | .hbm, ⟨75, _⟩ => ⟨S_, .f32⟩
  | .hbm, ⟨76, _⟩ => ⟨S50000x40, .f32⟩
  | .hbm, ⟨77, _⟩ => ⟨S675000x1, .i32⟩
  | .hbm, ⟨78, _⟩ => ⟨S50000x40, .f32⟩
  | .hbm, ⟨79, _⟩ => ⟨S1x40, .f32⟩
  | .hbm, ⟨80, _⟩ => ⟨S50000x40, .f32⟩
  | .hbm, ⟨81, _⟩ => ⟨S50000x40, .f32⟩
  | .hbm, ⟨82, _⟩ => ⟨S_, .f32⟩
  | .hbm, ⟨83, _⟩ => ⟨S50000, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000x1, .f32⟩
  | .hbm, ⟨88, _⟩ => ⟨S50000x40, .f32⟩
  | .hbm, ⟨89, _⟩ => ⟨S50000x40, .f32⟩
  | .hbm, ⟨90, _⟩ => ⟨S50000x40, .f32⟩
  | .hbm, ⟨91, _⟩ => ⟨S_, .f32⟩
  | .hbm, ⟨92, _⟩ => ⟨S50000, .f32⟩
  | .hbm, ⟨93, _⟩ => ⟨S50000x1, .f32⟩
  | .hbm, ⟨94, _⟩ => ⟨S50000x1, .f32⟩
  | .hbm, ⟨95, _⟩ => ⟨S50000x40, .f32⟩
  | .hbm, ⟨96, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v62 : Ref sig .tc := ⟨.hbm, 96, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  concatenates_S625000_S50000_S675000_d0 : Shape.Concatenates [S625000, S50000] S675000 0
  slices_S2x625000_S1x625000_1_0 : S2x625000.Slices ![1, 0] S1x625000
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S675000x1_S675000x40_0_1 : S675000x1.BroadcastsInDim S675000x40 (![0, 1] : Fin 2 → Fin S675000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S50000x128_S128x128_S50000x128_1_0_0_1_n_n_wf : DotDims.WF S50000x128 S128x128 S50000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  dot_S50000x128_S128x40_S50000x40_1_0_0_1_n_n_wf : DotDims.WF S50000x128 S128x40 S50000x40 [1] [0] [0] [1] [] []
  gather_S50000x40_S675000x1_S675000x40_1_0_n_n_0_1_140_wf : GatherDims.WF S50000x40 S675000x1 S675000x40 [1] [0] [] [0] [] 1 ![1, 40]
  scatter_S50000x40_S675000x1_S675000x40_1_0_0_1_wf : ScatterDims.WF S50000x40 S675000x1 S675000x40 [1] [0] [0] 1

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S675000x1_S675000x40_1_0_n_n_0_1_140 : GatherDims S50000x40 S675000x1 S675000x40 where
  offsetDims := [1]
  collapsedSliceDims := [0]
  operandBatchingDims := []
  startIndicesBatchingDims := []
  startIndexMap := [0]
  indexVectorDim := 1
  sliceSizes := ![1, 40]
  wf := gather_S50000x40_S675000x1_S675000x40_1_0_n_n_0_1_140_wf
def scatter_S50000x40_S675000x1_S675000x40_1_0_0_1 : ScatterDims S50000x40 S675000x1 S675000x40 where
  updateWindowDims := [1]
  insertedWindowDims := [0]
  scatterDimsToOperandDims := [0]
  indexVectorDim := 1
  wf := scatter_S50000x40_S675000x1_S675000x40_1_0_0_1_wf

class Facts : Prop extends Facts₀ where

variable [Facts]
-- ==== Proof.KRun.lean ====
/-
  The idealized kernel's run with its result named.

  @main is three pipelined regions among three stretches of host operations. The generated frame proof folds the
  TensorCore's buffer contents through these six segments: after the last one every unscoped buffer holds the last
  boundary's contents. Here the same run is read at the result buffer too: every weakly fair execution terminates
  with the result array at the last boundary's contents of its buffer, and the six arguments as launched.
-/
import proofs.«174868_j60722247631127_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the six segments, read at the result buffer and at the arguments. -/
theorem run_result : θ_run defs (onTc (τ := τ) (main (F := F))) ⟨m, fun _ => 0, ρ⟩ (fun r => ∀ c : Dev nD,
      r.2.mem ((c.tc : Thread nD τ).loc main_v59) = W6 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Hand

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.Region0.lean ====
/-
  The first region: a linear layer, tile by tile.

  The region's grid has ten points. At point t the body loads rows 5000·t … 5000·t + 4999 of the node features
  and the whole weight matrix, multiplies them, and stores the product into the same rows of the result. A change of
  float format is the identity on the extended reals, so entry (r, q) of the result is the sum over k of
  x (r, k) · W (k, q): the rows' blocks tile the array, and each block is that function read through its rows.
-/
import proofs.«174868_j60722247631127_2_alg».proof.Proof.Gen.KernelIdeal.Frame
import proofs.«174868_j60722247631127_2_alg».proof.Proof.LibPlainDot
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- Rows of `x` times `w`: entry (r, q) is the sum over k of x (r, k) · w (k, q). -/
def linear128 (x : S50000x128.Idx → Elt Ideal .f32) (w : S128x128.Idx → Elt Ideal .f32) : S50000x128.Idx → Elt Ideal .bf16 :=
  fun i => ∑ k : Fin 128, x (ix2 (i 0) k) * w (ix2 k (i 1))

theorem hz2 : (![0, 0] : Fin 2 → Nat) = fun _ => 0 := funext fun a => by fin_cases a <;> rfl

/-- The body's stored value at (p, q): the product of the loaded rows with the loaded matrix. -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.LibPlainDot.matmul_plain_apply dot_S5000x128_S128x128_S5000x128_1_0_0_1_n_n rfl rfl rfl rfl rfl rfl none _ _ p q

/-- The printed index maps over the grid: the row windows sit at block t, the weight window at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Rows 5000·t … of the features and the whole weight matrix, multiplied, are rows 5000·t … of `linear128`. -/
theorem block0 (t : Fin cfg0.N) (A0 : S50000x128.Idx → Elt Ideal .f32) (A2 : S128x128.Idx → Elt Ideal .f32) :
    k0_pay1 (((cfg0.win 0).blk t).view.read (Elt Ideal) A0) (((cfg0.win 1).blk t).view.read (Elt Ideal) A2)
      = ((cfg0.win 2).blk t).view.read (Elt Ideal) (linear128 A0 A2) := by
  obtain ⟨e0, e1, e2, e3, e4, e5⟩ := idx_facts0 t
  funext j
  obtain ⟨p, q, rfl⟩ : ∃ (p : Fin 5000) (q : Fin 128), j = ix2 p q := ⟨j 0, j 1, eq_ix2 j⟩
  refine (pay0_apply _ _ p q).trans ?_
  show ∑ k : Fin 128, A0 (((cfg0.win 0).blk t).view.emb (ix2 p k)) * A2 (((cfg0.win 1).blk t).view.emb (ix2 k q))
    = ∑ k : Fin 128, A0 (ix2 ((((cfg0.win 2).blk t).view.emb (ix2 p q)) 0) k) * A2 (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]
  rfl

variable (V : (c : Dev nD) → (b : Ref sig .tc) → Buf (Elt Ideal) ((c : Thread nD τ).loc b))

/-- What point `t` writes back is rows 5000·t … of `linear128` of the arrays the region finds. -/
theorem flushed0_eq (c : Dev nD) (t : Fin cfg0.N) :
    (dat0 V c).flushed 2 t = ((cfg0.win 2).blk t).view.read (Elt Ideal) (linear128 (V c main_arg0) (V c main_arg2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  exact block0 t (V c main_arg0) (V c main_arg2)

/-- An index of the result array is in point `t`'s block iff its row is among the block's rows. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every index of the result array is in the block of the point its row falls in. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by show (i 0).val / 5000 < 10; omega⟩, flush0_2 _, ?_⟩
  rw [mem_blk0]
  obtain ⟨e0, e1, e2, e3, e4, e5⟩ := idx_facts0 ⟨(i 0).val / 5000, by show (i 0).val / 5000 < 10; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- The result array when the region is left: `linear128` of the arrays the region finds. -/
theorem final0 (c : Dev nD) : (dat0 V c).arrAt 2 cfg0.N = linear128 (V c main_arg0) (V c main_arg2) :=
  (dat0 V c).arrAt_eq_of_cover 2 (linear128 (V c main_arg0) (V c main_arg2)) (fun t _ => flushed0_eq V c t) cover0

end Cert.KernelIdeal.Hand

end
-- ==== Proof.Region1.lean ====
/-
  The second region: bias, rectifier and the second linear layer, tile by tile.

  At point t the body loads rows 5000·t … 5000·t + 4999 of the aggregated features, the bias as one row and the
  whole second weight matrix; it adds the bias to every row, takes the maximum with zero, multiplies by the weights
  and stores the product into the same rows of the result. Entry (r, q) of the result is therefore the sum over k of
  max (a (r, k) + b (0, k), 0) · W (k, q), and the rows' blocks tile the array.
-/
import proofs.«174868_j60722247631127_2_alg».proof.Proof.Gen.KernelIdeal.Frame
import proofs.«174868_j60722247631127_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- Rows of `a`, each with the row `b` added and the negative entries set to zero, times `w`. -/
def hidden40 (a : S50000x128.Idx → Elt Ideal .f32) (b : S1x128.Idx → Elt Ideal .f32) (w : S128x40.Idx → Elt Ideal .f32) :
    S50000x40.Idx → Elt Ideal .bf16 :=
  fun i => ∑ k : Fin 128, max (a (ix2 (i 0) k) + b (ix2 (0 : Fin 1) k)) (Ideal.ofBits .f32 0x00000000#32) * w (ix2 k (i 1))

theorem hz2' : (![0, 0] : Fin 2 → Nat) = fun _ => 0 := funext fun a => by fin_cases a <;> rfl

/-- The body's stored value at (p, q). -/
theorem pay1_apply (v0 : Vec Ideal S1x128 .f32) (v4 : Vec Ideal S5000x128 .f32) (v10 : Vec Ideal S128x40 .f32) (p : Fin 5000) (q : Fin 40) :
    k1_pay1 v0 v4 v10 (ix2 p q)
      = ∑ k : Fin 128, max (v4 (ix2 p k) + v0 (ix2 (0 : Fin 1) k)) (Ideal.ofBits .f32 0x00000000#32) * v10 (ix2 k q) := by
  unfold k1_pay1
  refine (Cert.LibPlainDot.matmul_plain_apply dot_S5000x128_S128x40_S5000x40_1_0_0_1_n_n rfl rfl rfl rfl rfl rfl none _ _ p q).trans ?_
  refine Finset.sum_congr rfl fun k _ => ?_
  simp only [truncf_apply, maximumf_apply, addf_apply, broadcast_apply, shapeCast_self, broadcastTo_1b_ab_apply]
  rfl

/-- The printed index maps over the grid: the row windows sit at block t, the bias and weight windows at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Rows 5000·t … of the aggregate, the bias row and the weights, through the body, are rows 5000·t … of `hidden40`. -/
theorem block1 (t : Fin cfg1.N) (A0 : S50000x128.Idx → Elt Ideal .f32) (A1 : S1x128.Idx → Elt Ideal .f32) (A2 : S128x40.Idx → Elt Ideal .f32) :
    k1_pay1 (((cfg1.win 1).blk t).view.read (Elt Ideal) A1) (((cfg1.win 0).blk t).view.read (Elt Ideal) A0) (((cfg1.win 2).blk t).view.read (Elt Ideal) A2)
      = ((cfg1.win 3).blk t).view.read (Elt Ideal) (hidden40 A0 A1 A2) := by
  obtain ⟨e0, e1, e2, e3, e4, e5, e6, e7⟩ := idx_facts1 t
  funext j
  obtain ⟨p, q, rfl⟩ : ∃ (p : Fin 5000) (q : Fin 40), j = ix2 p q := ⟨j 0, j 1, eq_ix2 j⟩
  refine (pay1_apply _ _ _ p q).trans ?_
  show ∑ k : Fin 128, max (A0 (((cfg1.win 0).blk t).view.emb (ix2 p k)) + A1 (((cfg1.win 1).blk t).view.emb (ix2 (0 : Fin 1) k))) (Ideal.ofBits .f32 0x00000000#32) * A2 (((cfg1.win 2).blk t).view.emb (ix2 k q))
    = ∑ k : Fin 128, max (A0 (ix2 ((((cfg1.win 3).blk t).view.emb (ix2 p q)) 0) k) + A1 (ix2 (0 : Fin 1) k)) (Ideal.ofBits .f32 0x00000000#32) * A2 (ix2 k ((((cfg1.win 3).blk t).view.emb (ix2 p q)) 1))
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (ix2 k q) = ix2 k ((((cfg1.win 3).blk t).view.emb (ix2 p q)) 1) := by
    funext a; apply Fin.ext
    match a with
    | ⟨0, _⟩ => show win1_2.index t (0 : Fin 2) * 128 + 1 * k.val = k.val; omega
    | ⟨1, _⟩ => show win1_2.index t (1 : Fin 2) * 40 + 1 * q.val = win1_3.index t (1 : Fin 2) * 40 + 1 * q.val; omega
  rw [h0, h1, h2]
  rfl

variable (V : (c : Dev nD) → (b : Ref sig .tc) → Buf (Elt Ideal) ((c : Thread nD τ).loc b))

/-- What point `t` writes back is rows 5000·t … of `hidden40` of the arrays the region finds. -/
theorem flushed1_eq (c : Dev nD) (t : Fin cfg1.N) :
    (dat1 V c).flushed 3 t = ((cfg1.win 3).blk t).view.read (Elt Ideal) (hidden40 (V c main_v41) (V c main_v42) (V c main_arg4)) := by
  show (cfg1.win 3).cut (grid1.coords t) ((dat1 V c).after 3 t) = _
  rw [after1_3]
  unfold out1_3
  rw [View.canon_unit_zero hz2']
  simp only [View.ld_unit_zero (S := S5000x128) hz2', View.ld_unit_zero (S := S1x128) hz2', View.ld_unit_zero (S := S128x40) hz2']
  exact block1 t (V c main_v41) (V c main_v42) (V c main_arg4)

/-- An index of the result array is in point `t`'s block iff its row is among the block's rows. -/
theorem mem_blk1 (t : Fin cfg1.N) (i : S50000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v43).slice (win1_3.rect t)).set ↔ _
  rw [View.set_slice_whole, Rect.mem_set_unit]
  exact Iff.rfl

/-- Every index of the result array is in the block of the point its row falls in. -/
theorem cover1 (i : S50000x40.Idx) : ∃ t : Fin cfg1.N, (cfg1.win 3).flush t = true ∧ i ∈ ((cfg1.win 3).blk t).view.set := by
  have hi0 : (i 0).val < 50000 := (i 0).isLt
  have hi1 : (i 1).val < 40 := (i 1).isLt
  refine ⟨⟨(i 0).val / 5000, by show (i 0).val / 5000 < 10; omega⟩, flush1_3 _, ?_⟩
  rw [mem_blk1]
  obtain ⟨e0, e1, e2, e3, e4, e5, e6, e7⟩ := idx_facts1 ⟨(i 0).val / 5000, by show (i 0).val / 5000 < 10; omega⟩
  intro a
  match a with
  | ⟨0, _⟩ => show win1_3.index _ (0 : Fin 2) * 5000 ≤ (i 0).val ∧ (i 0).val < win1_3.index _ (0 : Fin 2) * 5000 + 5000; rw [e6]; show (i 0).val / 5000 * 5000 ≤ (i 0).val ∧ (i 0).val < (i 0).val / 5000 * 5000 + 5000; omega
  | ⟨1, _⟩ => show win1_3.index _ (1 : Fin 2) * 40 ≤ (i 1).val ∧ (i 1).val < win1_3.index _ (1 : Fin 2) * 40 + 40; rw [e7]; omega

/-- The result array when the region is left: `hidden40` of the arrays the region finds. -/
theorem final1 (c : Dev nD) : (dat1 V c).arrAt 3 cfg1.N = hidden40 (V c main_v41) (V c main_v42) (V c main_arg4) :=
  (dat1 V c).arrAt_eq_of_cover 3 (hidden40 (V c main_v41) (V c main_v42) (V c main_arg4)) (fun t _ => flushed1_eq V c t) cover1

end Cert.KernelIdeal.Hand

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.Region2.lean ====
/-
  The third region: bias and log-softmax along each row, tile by tile.

  At point t the body loads rows 5000·t … 5000·t + 4999 of the second aggregate and the bias as one row. With
  z (r, s) = a (r, s) + b (0, s), row r's largest entry M r (a maximum started from the least float), and the shifted
  entries z (r, s) − M r, the body stores (z (r, q) − M r) − log (Σ_s exp (z (r, s) − M r)) into the same rows of the
  result. The rows' blocks tile the array.
-/
import proofs.«174868_j60722247631127_2_alg».proof.Proof.Gen.KernelIdeal.Frame
import proofs.«174868_j60722247631127_2_alg».proof.Proof.LibRows
import proofs.«174868_j60722247631127_2_alg».proof.Proof.LibLayout
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators
open Cert.KernelIdeal.Facts₀ Cert.KernelIdeal.Facts

/-- The largest entry of a row, as a maximum started from the least float and then compared with it once more. -/
def rowTop (f : Fin 40 → Ideal .f32) : Ideal .f32 :=
  max (Ideal.ofBits .f32 0xFF800000#32) ((Finset.univ : Finset (Fin 40)).fold max (Ideal.ofBits .f32 0xFF800000#32) f)

/-- The log-softmax of one row, at column `q`. -/
def lsmRow (f : Fin 40 → Ideal .f32) (q : Fin 40) : Ideal .f32 :=
  (f q - rowTop f) - Ideal.log (∑ s : Fin 40, Ideal.exp (f s - rowTop f))

/-- The log-softmax of every row of `a` plus the row `b`. -/
def logSoftmax40 (a : S50000x40.Idx → Elt Ideal .f32) (b : S1x40.Idx → Elt Ideal .f32) : S50000x40.Idx → Elt Ideal .f32 :=
  fun i => lsmRow (fun s => a (ix2 (i 0) s) + b (ix2 (0 : Fin 1) s)) (i 1)

theorem hz2'' : (![0, 0] : Fin 2 → Nat) = fun _ => 0 := funext fun a => by fin_cases a <;> rfl

theorem exp_at {s : Shape} {φ : FTy} (x : FVec Ideal s φ) (i : s.Idx) : exp x i = Ideal.exp (x i) := rfl
theorem log_at {s : Shape} {φ : FTy} (x : FVec Ideal s φ) (i : s.Idx) : log x i = Ideal.log (x i) := rfl

/-- The loaded block with the bias row added to every row. -/
def biased (v0 : Vec Ideal S1x40 .f32) (v4 : Vec Ideal S5000x40 .f32) : FVec Ideal S5000x40 .f32 :=
  addf (shapeCast S5000x40 v4 Facts₀.shapeCasts_S5000x40_S5000x40)
    (broadcastTo S5000x40 (shapeCast S1x40 (shapeCast S1x40 v0 Facts₀.shapeCasts_S1x40_S1x40) Facts₀.shapeCasts_S1x40_S1x40) Facts₀.broadcasts_S1x40_S5000x40)

theorem biased_apply (v0 : Vec Ideal S1x40 .f32) (v4 : Vec Ideal S5000x40 .f32) (p : Fin 5000) (s : Fin 40) :
    biased v0 v4 (ix2 p s) = v4 (ix2 p s) + v0 (ix2 (0 : Fin 1) s) := by
  unfold biased
  rw [addf_apply, shapeCast_self, shapeCast_self, shapeCast_self, broadcastTo_1b_ab_apply]

/-- Every row's largest entry, repeated along the row. -/
def rowMaxB (z : FVec Ideal S5000x40 .f32) : FVec Ideal S5000x40 .f32 :=
  broadcastTo S5000x40 (shapeCast S5000x1 (maximumf (broadcast S5000 (Scalar.ofBits .f32 0xFF800000#32))
    (multiReduction .maximumf [1] S5000 z 0xFF800000#32 Facts₀.reduces_S5000x40_S5000 (.inl rfl) rfl)) Facts₀.shapeCasts_S5000_S5000x1) Facts₀.broadcasts_S5000x1_S5000x40

theorem rowMaxB_apply (z : FVec Ideal S5000x40 .f32) (p : Fin 5000) (c : Fin 40) :
    rowMaxB z (ix2 p c) = rowTop (fun s => z (ix2 p s)) := by
  unfold rowMaxB rowTop
  rw [broadcastTo_a1_ab_apply, shapeCast_a_a1_apply, maximumf_apply, broadcast_apply]
  exact congrArg (max (Ideal.ofBits .f32 0xFF800000#32)) (rowMax_apply z 0xFF800000#32 _ _ _ p)

/-- The body after the bias: shift every row by its largest entry, subtract the logarithm of the row's sum of exponentials. -/
def lsmBody (z : FVec Ideal S5000x40 .f32) : FVec Ideal S5000x40 .f32 :=
  subf (subf z (rowMaxB z))
    (broadcastTo S5000x40 (log (shapeCast S5000x1 (multiReduction .add [1] S5000 (exp (subf z (rowMaxB z))) 0x00000000#32
      Facts₀.reduces_S5000x40_S5000 (.inl rfl) rfl) Facts₀.shapeCasts_S5000_S5000x1)) Facts₀.broadcasts_S5000x1_S5000x40)

theorem lsmBody_apply (z : FVec Ideal S5000x40 .f32) (p : Fin 5000) (q : Fin 40) :
    lsmBody z (ix2 p q) = lsmRow (fun s => z (ix2 p s)) q := by
  have he : ∀ s : Fin 40, exp (subf z (rowMaxB z)) (ix2 p s) = Ideal.exp (z (ix2 p s) - rowTop (fun s => z (ix2 p s))) := fun s => by
    rw [exp_at, subf_apply, rowMaxB_apply]
  unfold lsmBody lsmRow
  rw [subf_apply, subf_apply, rowMaxB_apply, broadcastTo_a1_ab_apply, log_at, shapeCast_a_a1_apply]
  refine congrArg (fun S : Ideal .f32 => (z (ix2 p q) - rowTop (fun s => z (ix2 p s))) - Ideal.log S) ?_
  exact (rowSum_apply (exp (subf z (rowMaxB z))) 0x00000000#32 _ _ _ p).trans (Finset.sum_congr rfl fun s _ => he s)

/-- The body's stored value is the bias followed by the row-wise log-softmax. -/
theorem pay2_eq (v0 : Vec Ideal S1x40 .f32) (v4 : Vec Ideal S5000x40 .f32) : k2_pay1 v0 v4 = lsmBody (biased v0 v4) := rfl

/-- The body's stored value at (p, q), over the loaded block `v4` and bias row `v0`. -/
theorem pay2_apply (v0 : Vec Ideal S1x40 .f32) (v4 : Vec Ideal S5000x40 .f32) (p : Fin 5000) (q : Fin 40) :
    k2_pay1 v0 v4 (ix2 p q) = lsmRow (fun s => v4 (ix2 p s) + v0 (ix2 (0 : Fin 1) s)) q := by
  rw [pay2_eq, lsmBody_apply]
  simp only [biased_apply]

/-- The printed index maps over the grid: the row windows sit at block t, the bias window at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block's entry of the aggregate: row 5000·t + p, the same column. -/
theorem emb2_row (t : Fin cfg2.N) (p : Fin 5000) (q s : Fin 40) :
    ((cfg2.win 0).blk t).view.emb (ix2 p s) = ix2 ((((cfg2.win 2).blk t).view.emb (ix2 p q)) 0) s := by
  obtain ⟨e0, e1, e2, e3, e4, e5⟩ := idx_facts2 t
  funext a; apply Fin.ext
  match a with
  | ⟨0, _⟩ => show win2_0.index t (0 : Fin 2) * 5000 + 1 * p.val = win2_2.index t (0 : Fin 2) * 5000 + 1 * p.val; omega
  | ⟨1, _⟩ => show win2_0.index t (1 : Fin 2) * 40 + 1 * s.val = s.val; omega

/-- The bias row's block is the bias row. -/
theorem emb2_bias (t : Fin cfg2.N) (s : Fin 40) : ((cfg2.win 1).blk t).view.emb (ix2 (0 : Fin 1) s) = ix2 (0 : Fin 1) s := by
  obtain ⟨e0, e1, e2, e3, e4, e5⟩ := idx_facts2 t
  funext a; apply Fin.ext
  match a with
  | ⟨0, _⟩ => show win2_1.index t (0 : Fin 2) * 1 + 1 * 0 = 0; omega
  | ⟨1, _⟩ => show win2_1.index t (1 : Fin 2) * 40 + 1 * s.val = s.val; omega

/-- The result block's column is the entry's column. -/
theorem emb2_col (t : Fin cfg2.N) (p : Fin 5000) (q : Fin 40) : ((((cfg2.win 2).blk t).view.emb (ix2 p q)) 1).val = q.val := by
  obtain ⟨e0, e1, e2, e3, e4, e5⟩ := idx_facts2 t
  show win2_2.index t (1 : Fin 2) * 40 + 1 * q.val = q.val; omega

/-- Rows 5000·t … of the aggregate and the bias row, through the body, are rows 5000·t … of `logSoftmax40`. -/
theorem block2 (t : Fin cfg2.N) (A0 : S50000x40.Idx → Elt Ideal .f32) (A1 : S1x40.Idx → Elt Ideal .f32) :
    k2_pay1 (((cfg2.win 1).blk t).view.read (Elt Ideal) A1) (((cfg2.win 0).blk t).view.read (Elt Ideal) A0)
      = ((cfg2.win 2).blk t).view.read (Elt Ideal) (logSoftmax40 A0 A1) := by
  funext j
  obtain ⟨p, q, rfl⟩ : ∃ (p : Fin 5000) (q : Fin 40), j = ix2 p q := ⟨j 0, j 1, eq_ix2 j⟩
  refine (pay2_apply _ _ p q).trans ?_
  show lsmRow (fun s => A0 (((cfg2.win 0).blk t).view.emb (ix2 p s)) + A1 (((cfg2.win 1).blk t).view.emb (ix2 (0 : Fin 1) s))) q
    = lsmRow (fun s => A0 (ix2 ((((cfg2.win 2).blk t).view.emb (ix2 p q)) 0) s) + A1 (ix2 (0 : Fin 1) s)) ((((cfg2.win 2).blk t).view.emb (ix2 p q)) 1)
  have hf : (fun s : Fin 40 => A0 (((cfg2.win 0).blk t).view.emb (ix2 p s)) + A1 (((cfg2.win 1).blk t).view.emb (ix2 (0 : Fin 1) s)))
      = fun s : Fin 40 => A0 (ix2 ((((cfg2.win 2).blk t).view.emb (ix2 p q)) 0) s) + A1 (ix2 (0 : Fin 1) s) :=
    funext fun s => by rw [emb2_row t p q s, emb2_bias t s]; rfl
  have hq : (((cfg2.win 2).blk t).view.emb (ix2 p q)) 1 = q := Fin.ext (emb2_col t p q)
  rw [hf, hq]

variable (V : (c : Dev nD) → (b : Ref sig .tc) → Buf (Elt Ideal) ((c : Thread nD τ).loc b))

/-- What point `t` writes back is rows 5000·t … of `logSoftmax40` of the arrays the region finds. -/
theorem flushed2_eq (c : Dev nD) (t : Fin cfg2.N) :
    (dat2 V c).flushed 2 t = ((cfg2.win 2).blk t).view.read (Elt Ideal) (logSoftmax40 (V c main_v57) (V c main_v58)) := by
  show (cfg2.win 2).cut (grid2.coords t) ((dat2 V c).after 2 t) = _
  rw [after2_2]
  unfold out2_2
  rw [View.canon_unit_zero hz2'']
  simp only [View.ld_unit_zero (S := S5000x40) hz2'', View.ld_unit_zero (S := S1x40) hz2'']
  exact block2 t (V c main_v57) (V c main_v58)

/-- An index of the result array is in point `t`'s block iff its row is among the block's rows. -/
theorem mem_blk2 (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v59).slice (win2_2.rect t)).set ↔ _
  rw [View.set_slice_whole, Rect.mem_set_unit]
  exact Iff.rfl

/-- Every index of the result array is in the block of the point its row falls in. -/
theorem cover2 (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  refine ⟨⟨(i 0).val / 5000, by show (i 0).val / 5000 < 10; omega⟩, flush2_2 _, ?_⟩
  rw [mem_blk2]
  obtain ⟨e0, e1, e2, e3, e4, e5⟩ := idx_facts2 ⟨(i 0).val / 5000, by show (i 0).val / 5000 < 10; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 40 ≤ (i 1).val ∧ (i 1).val < win2_2.index _ (1 : Fin 2) * 40 + 40; rw [e5]; omega

/-- The result array when the region is left: `logSoftmax40` of the arrays the region finds. -/
theorem final2 (c : Dev nD) : (dat2 V c).arrAt 2 cfg2.N = logSoftmax40 (V c main_v57) (V c main_v58) :=
  (dat2 V c).arrAt_eq_of_cover 2 (logSoftmax40 (V c main_v57) (V c main_v58)) (fun t _ => flushed2_eq V c t) cover2

end Cert.KernelIdeal.Hand

end
-- ==== Proof.Chain.lean ====
/-
  The host side of the graph convolution, as functions of the arrays it reads.

  The edge list gets one self-loop per node: the source and target lists are the two rows of the edge array, each
  followed by 0, 1, …, 49999. A negative index is wrapped by adding the node count before a lookup. A node's degree
  counts the edges that end in it; an edge's weight is the product of the inverse square roots of its two ends'
  degrees. One aggregation step looks a row up for every edge's source, scales it by the edge's weight, and adds it
  into the row of the edge's target, starting from zero. Each of these is named here once, so that two programs that
  apply them to equal arrays can be compared without opening them.
-/
import proofs.«174868_j60722247631127_2_alg».proof.KernelIdeal

noncomputable section

namespace Cert.KernelIdeal.Hand

open Cert.KernelIdeal Idealize.ShloMosaic
open Cert.KernelIdeal.Facts₀ Cert.KernelIdeal.Facts

variable {F : FTy → Type} [FloatOps F] [Cert.KernelIdeal.Facts]

/-- Row `r` of the edge array followed by one self-loop per node. -/
def endsOf (r : Nat) (hr : S2x625000.Slices ![r, 0] S1x625000) (e : (⟨S2x625000, .i32⟩ : BufTy).Contents (Elt F)) :
    (⟨S675000, .i32⟩ : BufTy).Contents (Elt F) :=
  concatenate S675000 0 [⟨S625000, (shapeCast _ (extractStridedSlice S1x625000 ![r, 0] e hr) shapeCasts_S1x625000_S625000)⟩, ⟨S50000, (iotaInDim S50000 32 0)⟩] concatenates_S625000_S50000_S675000_d0

/-- The edges' sources. -/
def srcOf (e : (⟨S2x625000, .i32⟩ : BufTy).Contents (Elt F)) : (⟨S675000, .i32⟩ : BufTy).Contents (Elt F) :=
  endsOf 0 slices_S2x625000_S1x625000_0_0 e

/-- The edges' targets. -/
def dstOf (e : (⟨S2x625000, .i32⟩ : BufTy).Contents (Elt F)) : (⟨S675000, .i32⟩ : BufTy).Contents (Elt F) :=
  endsOf 1 slices_S2x625000_S1x625000_1_0 e

/-- A list of node indices as lookup positions: a negative index is moved up by the node count. -/
def wrapIdx (s : (⟨S675000, .i32⟩ : BufTy).Contents (Elt F)) : (⟨S675000x1, .i32⟩ : BufTy).Contents (Elt F) :=
  broadcastInDim S675000x1 ![0] bcast_S675000_S675000x1_0
    (select (cmpi .slt s (broadcastInDim S675000 ![] bcast_S_S675000 (constantI S_ 32 0#32)))
      (addi s (broadcastInDim S675000 ![] bcast_S_S675000 (constantI S_ 32 50000#32))) s)

/-- The inverse square root of every node's degree (the number of edges that end in it). -/
def invSqrtDeg (dst : (⟨S675000, .i32⟩ : BufTy).Contents (Elt F)) : (⟨S50000, .f32⟩ : BufTy).Contents (Elt F) :=
  Host.rsqrt (Host.scatterAdd scatter_S50000_S675000x1_S675000_n_0_0_1 (broadcastInDim S50000 ![] bcast_S_S50000 (constant S_ .f32 0x00000000#32))
    (broadcastInDim S675000x1 ![0] bcast_S675000_S675000x1_0 dst) (broadcastInDim S675000 ![] bcast_S_S675000 (constant S_ .f32 0x3F800000#32)))

/-- Every edge's weight: the product of its two ends' inverse square root degrees. -/
def weightOf (src dst : (⟨S675000, .i32⟩ : BufTy).Contents (Elt F)) : (⟨S675000, .f32⟩ : BufTy).Contents (Elt F) :=
  mulf (Host.gather gather_S50000_S675000x1_S675000_n_0_n_n_0_1_1 (invSqrtDeg dst) (wrapIdx src))
    (Host.gather gather_S50000_S675000x1_S675000_n_0_n_n_0_1_1 (invSqrtDeg dst) (wrapIdx dst))

/-- One aggregation step on 128 columns: each edge's source row, scaled by the edge's weight, added into its target row. -/
def aggregate128 (h : (⟨S50000x128, .bf16⟩ : BufTy).Contents (Elt F)) (src dst : (⟨S675000, .i32⟩ : BufTy).Contents (Elt F))
    (w : (⟨S675000, .f32⟩ : BufTy).Contents (Elt F)) : (⟨S50000x128, .f32⟩ : BufTy).Contents (Elt F) :=
  Host.scatterAdd scatter_S50000x128_S675000x1_S675000x128_1_0_0_1 (broadcastInDim S50000x128 ![] bcast_S_S50000x128 (constant S_ .f32 0x00000000#32))
    (broadcastInDim S675000x1 ![0] bcast_S675000_S675000x1_0 dst)
    (mulf (extf .f32 (Host.gather gather_S50000x128_S675000x1_S675000x128_1_0_n_n_0_1_1128 h (wrapIdx src)) bitsLt_bf16_f32)
      (broadcastInDim S675000x128 ![0, 1] bcast_S675000x1_S675000x128_0_1 (broadcastInDim S675000x1 ![0] bcast_S675000_S675000x1_0 w)))

/-- One aggregation step on 40 columns. -/
def aggregate40 (h : (⟨S50000x40, .bf16⟩ : BufTy).Contents (Elt F)) (src dst : (⟨S675000, .i32⟩ : BufTy).Contents (Elt F))
    (w : (⟨S675000, .f32⟩ : BufTy).Contents (Elt F)) : (⟨S50000x40, .f32⟩ : BufTy).Contents (Elt F) :=
  Host.scatterAdd scatter_S50000x40_S675000x1_S675000x40_1_0_0_1 (broadcastInDim S50000x40 ![] bcast_S_S50000x40 (constant S_ .f32 0x00000000#32))
    (broadcastInDim S675000x1 ![0] bcast_S675000_S675000x1_0 dst)
    (mulf (extf .f32 (Host.gather gather_S50000x40_S675000x1_S675000x40_1_0_n_n_0_1_140 h (wrapIdx src)) bitsLt_bf16_f32)
      (broadcastInDim S675000x40 ![0, 1] bcast_S675000x1_S675000x40_0_1 (broadcastInDim S675000x1 ![0] bcast_S675000_S675000x1_0 w)))

end Cert.KernelIdeal.Hand

end
-- ==== Proof.Stretch.lean ====
/-
  The three stretches of host operations, read at the buffers that matter.

  From any buffer contents W: the first stretch leaves the edges' sources, targets and weights (functions of the edge
  array alone) and touches no argument; the second leaves one aggregation step of the first region's result and the
  first bias as a row; the third leaves one aggregation step of the second region's result and the second bias as a
  row. Neither of the later two touches the sources, targets, weights or the arguments it does not read.
-/
import proofs.«174868_j60722247631127_2_alg».proof.Proof.Gen.KernelIdeal.Launch
import proofs.«174868_j60722247631127_2_alg».proof.Proof.Chain
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Cert.KernelIdeal.Facts₀ Cert.KernelIdeal.Facts

variable {F : FTy → Type} [FloatOps F]
variable (W : Valuation τ sig (Elt F))

/-! ## The first stretch -/

theorem s0_src : after (hostOps0 : List (HloOp τ sig (Elt F))) W (Proc.devRef .tc main_v3) = srcOf (W (Proc.devRef .tc main_arg1)) := by
  unfold srcOf endsOf
  dsimp only [hostOps0]
  after_results_simp <;> rfl

theorem s0_dst : after (hostOps0 : List (HloOp τ sig (Elt F))) W (Proc.devRef .tc main_v6) = dstOf (W (Proc.devRef .tc main_arg1)) := by
  unfold dstOf endsOf
  dsimp only [hostOps0]
  after_results_simp <;> rfl

theorem s0_weight : after (hostOps0 : List (HloOp τ sig (Elt F))) W (Proc.devRef .tc main_v26)
    = weightOf (srcOf (W (Proc.devRef .tc main_arg1))) (dstOf (W (Proc.devRef .tc main_arg1))) := by
  unfold weightOf invSqrtDeg wrapIdx srcOf dstOf endsOf
  dsimp only [hostOps0]
  after_results_simp <;> rfl

theorem s0_keep_arg0 : after (hostOps0 : List (HloOp τ sig (Elt F))) W (Proc.devRef .tc main_arg0) = W (Proc.devRef .tc main_arg0) := by
  dsimp only [hostOps0]
  after_results_simp <;> rfl
theorem s0_keep_arg2 : after (hostOps0 : List (HloOp τ sig (Elt F))) W (Proc.devRef .tc main_arg2) = W (Proc.devRef .tc main_arg2) := by
  dsimp only [hostOps0]
  after_results_simp <;> rfl
theorem s0_keep_arg3 : after (hostOps0 : List (HloOp τ sig (Elt F))) W (Proc.devRef .tc main_arg3) = W (Proc.devRef .tc main_arg3) := by
  dsimp only [hostOps0]
  after_results_simp <;> rfl
theorem s0_keep_arg4 : after (hostOps0 : List (HloOp τ sig (Elt F))) W (Proc.devRef .tc main_arg4) = W (Proc.devRef .tc main_arg4) := by
  dsimp only [hostOps0]
  after_results_simp <;> rfl
theorem s0_keep_arg5 : after (hostOps0 : List (HloOp τ sig (Elt F))) W (Proc.devRef .tc main_arg5) = W (Proc.devRef .tc main_arg5) := by
  dsimp only [hostOps0]
  after_results_simp <;> rfl

/-! ## The second stretch -/

theorem s1_agg : after (hostOps1 : List (HloOp τ sig (Elt F))) W (Proc.devRef .tc main_v41)
    = aggregate128 (W (Proc.devRef .tc main_v27)) (W (Proc.devRef .tc main_v3)) (W (Proc.devRef .tc main_v6)) (W (Proc.devRef .tc main_v26)) := by
  unfold aggregate128 wrapIdx
  dsimp only [hostOps1]
  after_results_simp <;> rfl

theorem s1_bias : after (hostOps1 : List (HloOp τ sig (Elt F))) W (Proc.devRef .tc main_v42)
    = shapeCast S1x128 (W (Proc.devRef .tc main_arg3)) Facts₀.shapeCasts_S128_S1x128 := by
  dsimp only [hostOps1]
  after_results_simp <;> rfl

theorem s1_keep_v3 : after (hostOps1 : List (HloOp τ sig (Elt F))) W (Proc.devRef .tc main_v3) = W (Proc.devRef .tc main_v3) := by
  dsimp only [hostOps1]
  after_results_simp <;> rfl
theorem s1_keep_v6 : after (hostOps1 : List (HloOp τ sig (Elt F))) W (Proc.devRef .tc main_v6) = W (Proc.devRef .tc main_v6) := by
  dsimp only [hostOps1]
  after_results_simp <;> rfl
theorem s1_keep_v26 : after (hostOps1 : List (HloOp τ sig (Elt F))) W (Proc.devRef .tc main_v26) = W (Proc.devRef .tc main_v26) := by
  dsimp only [hostOps1]
  after_results_simp <;> rfl
theorem s1_keep_arg4 : after (hostOps1 : List (HloOp τ sig (Elt F))) W (Proc.devRef .tc main_arg4) = W (Proc.devRef .tc main_arg4) := by
  dsimp only [hostOps1]
  after_results_simp <;> rfl
theorem s1_keep_arg5 : after (hostOps1 : List (HloOp τ sig (Elt F))) W (Proc.devRef .tc main_arg5) = W (Proc.devRef .tc main_arg5) := by
  dsimp only [hostOps1]
  after_results_simp <;> rfl

/-! ## The third stretch -/

theorem s2_agg : after (hostOps2 : List (HloOp τ sig (Elt F))) W (Proc.devRef .tc main_v57)
    = aggregate40 (W (Proc.devRef .tc main_v43)) (W (Proc.devRef .tc main_v3)) (W (Proc.devRef .tc main_v6)) (W (Proc.devRef .tc main_v26)) := by
  unfold aggregate40 wrapIdx
  dsimp only [hostOps2]
  after_results_simp <;> rfl

theorem s2_bias : after (hostOps2 : List (HloOp τ sig (Elt F))) W (Proc.devRef .tc main_v58)
    = shapeCast S1x40 (W (Proc.devRef .tc main_arg5)) Facts₀.shapeCasts_S40_S1x40 := by
  dsimp only [hostOps2]
  after_results_simp <;> rfl

end Cert.KernelIdeal.Hand

end
-- ==== Proof.KValue.lean ====
/-
  The idealized kernel's result as one function of its arguments.

  The result buffer's contents at the last boundary are walked back through the six segments: the third region's
  array is the row-wise log-softmax of what the third stretch left, which is one aggregation step of the second
  region's array, which is the rectified linear layer of what the second stretch left, which is one aggregation step of
  the first region's array, the first linear layer of the arguments. The edges' sources, targets and weights are
  written by the first stretch and untouched afterwards; the arguments are never written.
-/
import proofs.«174868_j60722247631127_2_alg».proof.Proof.Region0
import proofs.«174868_j60722247631127_2_alg».proof.Proof.Region1
import proofs.«174868_j60722247631127_2_alg».proof.Proof.Region2
import proofs.«174868_j60722247631127_2_alg».proof.Proof.Stretch

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem
open Cert.KernelIdeal.Facts₀ Cert.KernelIdeal.Facts

/-- Two graph-convolution layers and a row-wise log-softmax, over the chain's functions: what the kernel computes. -/
def kernelOut (x : (⟨S50000x128, .f32⟩ : BufTy).Contents (Elt Ideal)) (e : (⟨S2x625000, .i32⟩ : BufTy).Contents (Elt Ideal))
    (w1 : (⟨S128x128, .f32⟩ : BufTy).Contents (Elt Ideal)) (b1 : (⟨S128, .f32⟩ : BufTy).Contents (Elt Ideal))
    (w2 : (⟨S128x40, .f32⟩ : BufTy).Contents (Elt Ideal)) (b2 : (⟨S40, .f32⟩ : BufTy).Contents (Elt Ideal)) :
    (⟨S50000x40, .f32⟩ : BufTy).Contents (Elt Ideal) :=
  logSoftmax40
    (aggregate40
      (hidden40 (aggregate128 (linear128 x w1) (srcOf e) (dstOf e) (weightOf (srcOf e) (dstOf e)))
        (shapeCast S1x128 b1 Facts₀.shapeCasts_S128_S1x128) w2)
      (srcOf e) (dstOf e) (weightOf (srcOf e) (dstOf e)))
    (shapeCast S1x40 b2 Facts₀.shapeCasts_S40_S1x40)

variable (m : (ℓ : Loc nD τ sig) → Buf (Elt Ideal) ℓ) (ρ : Dev nD → PrngReg) (c : Dev nD)

/-! ## The edges' sources, targets and weights at the later boundaries -/

theorem src_at2 : W2 m ρ c (Proc.devRef .tc main_v3) = srcOf (m ((c : Thread nD τ).loc main_arg1)) :=
  (W2_of_ne m ρ c main_v3 (by decide)).trans (s0_src (W0 m ρ c))
theorem dst_at2 : W2 m ρ c (Proc.devRef .tc main_v6) = dstOf (m ((c : Thread nD τ).loc main_arg1)) :=
  (W2_of_ne m ρ c main_v6 (by decide)).trans (s0_dst (W0 m ρ c))
theorem weight_at2 : W2 m ρ c (Proc.devRef .tc main_v26) = weightOf (srcOf (m ((c : Thread nD τ).loc main_arg1))) (dstOf (m ((c : Thread nD τ).loc main_arg1))) :=
  (W2_of_ne m ρ c main_v26 (by decide)).trans (s0_weight (W0 m ρ c))

theorem src_at4 : W4 m ρ c (Proc.devRef .tc main_v3) = srcOf (m ((c : Thread nD τ).loc main_arg1)) :=
  (W4_of_ne m ρ c main_v3 (by decide)).trans ((s1_keep_v3 (W2 m ρ c)).trans (src_at2 m ρ c))
theorem dst_at4 : W4 m ρ c (Proc.devRef .tc main_v6) = dstOf (m ((c : Thread nD τ).loc main_arg1)) :=
  (W4_of_ne m ρ c main_v6 (by decide)).trans ((s1_keep_v6 (W2 m ρ c)).trans (dst_at2 m ρ c))
theorem weight_at4 : W4 m ρ c (Proc.devRef .tc main_v26) = weightOf (srcOf (m ((c : Thread nD τ).loc main_arg1))) (dstOf (m ((c : Thread nD τ).loc main_arg1))) :=
  (W4_of_ne m ρ c main_v26 (by decide)).trans ((s1_keep_v26 (W2 m ρ c)).trans (weight_at2 m ρ c))

/-! ## The arguments at the boundaries where they are read -/

theorem arg0_at1 : W1 m ρ c (Proc.devRef .tc main_arg0) = (m ((c : Thread nD τ).loc main_arg0)) := s0_keep_arg0 (W0 m ρ c)
theorem arg2_at1 : W1 m ρ c (Proc.devRef .tc main_arg2) = (m ((c : Thread nD τ).loc main_arg2)) := s0_keep_arg2 (W0 m ρ c)
theorem arg3_at2 : W2 m ρ c (Proc.devRef .tc main_arg3) = (m ((c : Thread nD τ).loc main_arg3)) :=
  (W2_of_ne m ρ c main_arg3 (by decide)).trans (s0_keep_arg3 (W0 m ρ c))
theorem arg4_at3 : W3 m ρ c (Proc.devRef .tc main_arg4) = (m ((c : Thread nD τ).loc main_arg4)) :=
  (s1_keep_arg4 (W2 m ρ c)).trans ((W2_of_ne m ρ c main_arg4 (by decide)).trans (s0_keep_arg4 (W0 m ρ c)))
theorem arg5_at4 : W4 m ρ c (Proc.devRef .tc main_arg5) = (m ((c : Thread nD τ).loc main_arg5)) :=
  (W4_of_ne m ρ c main_arg5 (by decide)).trans ((s1_keep_arg5 (W2 m ρ c)).trans
    ((W2_of_ne m ρ c main_arg5 (by decide)).trans (s0_keep_arg5 (W0 m ρ c))))

/-! ## The three regions' arrays -/

/-- The first region leaves the first linear layer of the features. -/
theorem layer1 : W2 m ρ c (Proc.devRef .tc main_v27) = linear128 (m ((c : Thread nD τ).loc main_arg0)) (m ((c : Thread nD τ).loc main_arg2)) :=
  (W2_arr m ρ c 2).trans ((final0 (V1 m ρ) c).trans (congrArg₂ linear128 (arg0_at1 m ρ c) (arg2_at1 m ρ c)))

/-- The second stretch leaves one aggregation step of it, and the first bias as a row. -/
theorem agg1 : W3 m ρ c (Proc.devRef .tc main_v41)
    = aggregate128 (linear128 (m ((c : Thread nD τ).loc main_arg0)) (m ((c : Thread nD τ).loc main_arg2))) (srcOf (m ((c : Thread nD τ).loc main_arg1))) (dstOf (m ((c : Thread nD τ).loc main_arg1))) (weightOf (srcOf (m ((c : Thread nD τ).loc main_arg1))) (dstOf (m ((c : Thread nD τ).loc main_arg1)))) := by
  refine (s1_agg (W2 m ρ c)).trans ?_
  rw [layer1 m ρ c, src_at2 m ρ c, dst_at2 m ρ c, weight_at2 m ρ c]
theorem bias1 : W3 m ρ c (Proc.devRef .tc main_v42) = shapeCast S1x128 (m ((c : Thread nD τ).loc main_arg3)) Facts₀.shapeCasts_S128_S1x128 := by
  refine (s1_bias (W2 m ρ c)).trans ?_
  rw [arg3_at2 m ρ c]

/-- The second region leaves the rectified second linear layer. -/
theorem layer2 : W4 m ρ c (Proc.devRef .tc main_v43)
    = hidden40 (aggregate128 (linear128 (m ((c : Thread nD τ).loc main_arg0)) (m ((c : Thread nD τ).loc main_arg2))) (srcOf (m ((c : Thread nD τ).loc main_arg1))) (dstOf (m ((c : Thread nD τ).loc main_arg1))) (weightOf (srcOf (m ((c : Thread nD τ).loc main_arg1))) (dstOf (m ((c : Thread nD τ).loc main_arg1)))))
        (shapeCast S1x128 (m ((c : Thread nD τ).loc main_arg3)) Facts₀.shapeCasts_S128_S1x128) (m ((c : Thread nD τ).loc main_arg4)) := by
  refine (W4_arr m ρ c 3).trans ((final1 (V3 m ρ) c).trans ?_)
  show hidden40 (W3 m ρ c (Proc.devRef .tc main_v41)) (W3 m ρ c (Proc.devRef .tc main_v42)) (W3 m ρ c (Proc.devRef .tc main_arg4)) = _
  rw [agg1 m ρ c, bias1 m ρ c, arg4_at3 m ρ c]

/-- The third stretch leaves one aggregation step of it, and the second bias as a row. -/
theorem agg2 : W5 m ρ c (Proc.devRef .tc main_v57)
    = aggregate40 (hidden40 (aggregate128 (linear128 (m ((c : Thread nD τ).loc main_arg0)) (m ((c : Thread nD τ).loc main_arg2))) (srcOf (m ((c : Thread nD τ).loc main_arg1))) (dstOf (m ((c : Thread nD τ).loc main_arg1))) (weightOf (srcOf (m ((c : Thread nD τ).loc main_arg1))) (dstOf (m ((c : Thread nD τ).loc main_arg1)))))
        (shapeCast S1x128 (m ((c : Thread nD τ).loc main_arg3)) Facts₀.shapeCasts_S128_S1x128) (m ((c : Thread nD τ).loc main_arg4))) (srcOf (m ((c : Thread nD τ).loc main_arg1))) (dstOf (m ((c : Thread nD τ).loc main_arg1))) (weightOf (srcOf (m ((c : Thread nD τ).loc main_arg1))) (dstOf (m ((c : Thread nD τ).loc main_arg1)))) := by
  refine (s2_agg (W4 m ρ c)).trans ?_
  rw [layer2 m ρ c, src_at4 m ρ c, dst_at4 m ρ c, weight_at4 m ρ c]
theorem bias2 : W5 m ρ c (Proc.devRef .tc main_v58) = shapeCast S1x40 (m ((c : Thread nD τ).loc main_arg5)) Facts₀.shapeCasts_S40_S1x40 := by
  refine (s2_bias (W4 m ρ c)).trans ?_
  rw [arg5_at4 m ρ c]

/-- The result buffer at the last boundary: `kernelOut` of the arguments as launched. -/
theorem kernel_value : W6 m ρ c (Proc.devRef .tc main_v59)
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 2).trans ((final2 (V5 m ρ) c).trans ?_)
  show logSoftmax40 (W5 m ρ c (Proc.devRef .tc main_v57)) (W5 m ρ c (Proc.devRef .tc main_v58)) = _
  rw [agg2 m ρ c, bias2 m ρ c]
  rfl

end Cert.KernelIdeal.Hand

end
-- ==== Proof.LibTyped.lean ====
/-
  Typed references: a value carried to a buffer's own type and back.

  A host operation inside a called function is stated over references that carry the type of the tensor value they
  hold; its function is moved to the buffer's own type along the reference's type equation, on the way in and on the
  way out. Reading a chain of such operations therefore leaves, around every intermediate value, a transport to the
  buffer's type followed by the transport back. The two cancel, whatever the reference.
-/
import Idealize.ShloMosaic.Lib.StableHlo

namespace Cert.LibTyped

open Idealize.ShloMosaic Idealize.ShloMosaic.StableHlo

/-- A value moved to a typed reference's buffer type and back is the value: both moves are transports along the one
    equation between the buffer's type and the value's, in opposite directions. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- The same the other way round: a buffer's contents read at the value's type and moved back. -/
theorem toBuf_ofBuf {sig : RefSig} {T : BufTy} {Val : EltTy → Type} (x : TRef sig T) (v : x.ref.ty.Contents Val) :
    x.toBuf (x.ofBuf v) = v := by
  obtain ⟨r, h, h1, h2⟩ := x
  subst h
  rfl

end Cert.LibTyped
-- ==== Proof.LibTypedLit.lean ====
/-
  Typed references at a literal buffer: the transport is the identity.

  A typed reference made from a buffer at that buffer's own type carries the reflexive type equation, so moving a
  value to the buffer's type, or back, along it changes nothing.
-/
import Idealize.ShloMosaic.Lib.StableHlo

namespace Cert.LibTypedLit

open Idealize.ShloMosaic Idealize.ShloMosaic.StableHlo

/-- Contents of a buffer read at the buffer's own type through its typed reference are the contents. -/
theorem ofBuf_of {sig : RefSig} {Val : EltTy → Type} (r : Ref sig .tc) (h1) (h2) (v : r.ty.Contents Val) :
    (TRef.of (T := r.ty) r rfl h1 h2).ofBuf v = v := rfl

/-- A value of the buffer's own type moved to the buffer through its typed reference is the value. -/
theorem toBuf_of {sig : RefSig} {Val : EltTy → Type} (r : Ref sig .tc) (h1) (h2) (v : r.ty.Contents Val) :
    (TRef.of (T := r.ty) r rfl h1 h2).toBuf v = v := rfl

end Cert.LibTypedLit
-- ==== Proof.RefLayers.lean ====
/-
  The reference's two layers against the functions the kernel's value is written over.

  The reference's edge lists and weights are the chain's; its first product is the first linear layer; its first
  scatter is one aggregation step of that product; bias, rectifier and second product together are the rectified second
  layer of the aggregate (the bias as a row is the bias broadcast along the rows); its second scatter is one aggregation
  step. On the extended reals a change of float format is the identity, so the kernel's lookups of rounded rows are
  lookups of the rows.
-/
import proofs.«174868_j60722247631127_2_alg».proof.Proof.RefRead
import proofs.«174868_j60722247631127_2_alg».proof.Proof.Chain
import proofs.«174868_j60722247631127_2_alg».proof.Proof.Region0
import proofs.«174868_j60722247631127_2_alg».proof.Proof.Region1
import Idealize.ShloMosaic.Lib.ValueLayout

set_option maxRecDepth 16384

noncomputable section

namespace Cert.ReferenceIdeal.RefValue

open Cert.ReferenceIdeal Cert.ReferenceIdeal.ReadP
open Idealize.ShloMosaic Idealize.ShloMosaic.ValueIdx
open Cert.KernelIdeal.Hand (linear128 hidden40 aggregate128 aggregate40 srcOf dstOf weightOf)
open scoped BigOperators

variable (x0 : (⟨S50000x128, .f32⟩ : BufTy).Contents (Elt Ideal)) (x1 : (⟨S2x625000, .i32⟩ : BufTy).Contents (Elt Ideal)) (x2 : (⟨S128x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal))

/-! ## The edges -/

theorem edges_src : val_main_v3 (F := Ideal) x1 = srcOf x1 := rfl
theorem edges_dst : val_main_v6 (F := Ideal) x1 = dstOf x1 := rfl
theorem edges_weight : val_main_v26 (F := Ideal) x1 = weightOf (srcOf x1) (dstOf x1) := rfl

/-! ## The first layer -/

/-- The reference's first product is the first linear layer. -/
theorem first_linear : ∀ i, val_main_v27 (F := Ideal) x0 x2 i = linear128 x0 x2 i := fun i => by
  rw [val_main_v27_apply]
  show _ = ∑ k : Fin 128, x0 (ix2 (i 0) k) * x2 (ix2 k (i 1))
  refine Finset.sum_congr rfl fun k _ => ?_
  have hl : lidx_main_v27 i k = ix2 (i 0) k := funext fun a => Fin.ext (by match a with | ⟨0, _⟩ => rfl | ⟨1, _⟩ => rfl)
  have hr : ridx_main_v27 i k = ix2 k (i 1) := funext fun a => Fin.ext (by match a with | ⟨0, _⟩ => rfl | ⟨1, _⟩ => rfl)
  rw [hl, hr]
  rfl

/-- The reference's first scatter is one aggregation step of its first product. -/
theorem first_aggregate : val_main_v40 (F := Ideal) x0 x1 x2
    = aggregate128 (val_main_v27 (F := Ideal) x0 x2) (val_main_v3 (F := Ideal) x1) (val_main_v6 (F := Ideal) x1) (val_main_v26 (F := Ideal) x1) := rfl

/-! ## The second layer -/

/-- Bias, rectifier and the reference's second product: the rectified second layer of the first aggregate, the bias
    taken as a row. -/
theorem second_linear : ∀ i, val_main_v45 (F := Ideal) x0 x1 x2 x3 x4 i = hidden40 (val_main_v40 (F := Ideal) x0 x1 x2) (shapeCast Cert.KernelIdeal.S1x128 x3 Cert.KernelIdeal.Facts₀.shapeCasts_S128_S1x128) x4 i := fun i => by
  obtain ⟨r, q, rfl⟩ : ∃ (r : Fin 50000) (q : Fin 40), i = ix2 r q := ⟨i 0, i 1, eq_ix2 i⟩
  have hl : ∀ k : Fin 128, lidx_main_v45 (ix2 r q) k = ix2 r k := fun k => funext fun a => Fin.ext (by match a with | ⟨0, _⟩ => rfl | ⟨1, _⟩ => rfl)
  have hr : ∀ k : Fin 128, ridx_main_v45 (ix2 r q) k = ix2 k q := fun k => funext fun a => Fin.ext (by match a with | ⟨0, _⟩ => rfl | ⟨1, _⟩ => rfl)
  have hb : ∀ k : Fin 128, idx_main_v41 (idx_main_v42 (ix2 r k)) = ix1 k := fun k => funext fun a => Fin.ext (by match a with | ⟨0, _⟩ => rfl)
  have hterm : ∀ k : Fin 128, val_main_v44 (F := Ideal) x0 x1 x2 x3 (lidx_main_v45 (ix2 r q) k) * x4 (ridx_main_v45 (ix2 r q) k)
      = max (val_main_v40 (F := Ideal) x0 x1 x2 (ix2 r k) + (shapeCast Cert.KernelIdeal.S1x128 x3 Cert.KernelIdeal.Facts₀.shapeCasts_S128_S1x128) (ix2 (0 : Fin 1) k)) (Ideal.ofBits .f32 0x00000000#32) * x4 (ix2 k q) := fun k => by
    rw [hl k, hr k, val_main_v44_apply, val_main_v43_apply, val_main_v42_apply, val_main_v41_apply, val_main_call0_v0_apply,
      val_main_call0_cst_apply, hb k, shapeCast_a_1a_apply, Ideal.maximumf_def, Ideal.addf_def, Ideal.ofBits_def]
  rw [val_main_v45_apply, Finset.sum_congr rfl (fun k _ => hterm k)]
  generalize val_main_v40 (F := Ideal) x0 x1 x2 = A
  rfl

/-- The reference's second scatter is one aggregation step of its second product. -/
theorem second_aggregate : val_main_v58 (F := Ideal) x0 x1 x2 x3 x4
    = aggregate40 (val_main_v45 (F := Ideal) x0 x1 x2 x3 x4) (val_main_v3 (F := Ideal) x1) (val_main_v6 (F := Ideal) x1) (val_main_v26 (F := Ideal) x1) := rfl

end Cert.ReferenceIdeal.RefValue

end
-- ==== Proof.LibHostRows.lean ====
/-
  The host's maximum over the second axis of a matrix, read at a row, at the exact (extended-real) values.

  Row `t` of an `[a, b]` array reduced over its second axis by `stablehlo.reduce` with a maximum collects the entries
  `(t, s)`, `s` running over the `b` columns: the fold of `max` over them from the starting value's one element. (The
  kernel-side `multi_reduction` forms and the stack form `[n, a, b]` are in LibRows.lean, whose coordinate lemma this uses.)
-/
import proofs.«174868_j60722247631127_2_alg».proof.Proof.LibRows

namespace Idealize.ShloMosaic.ValueIdx

open Idealize.ShloMosaic

variable {φ : FTy}

/-- The host's maximum over the second axis of a matrix: at `t` the fold of `max` over the entries `(t, s)`, from the
    starting value's one element. -/
theorem hostRowMax_apply {a b : ℕ} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (t : Fin a) :
    Host.reduce FloatOps.maximumf x init h' hu (ix1 t)
      = (Finset.univ : Finset (Fin b)).fold max (init ix0) (fun s => x (ix2 t s)) := by
  rw [Host.reduce_eq_fold_single FloatOps.maximumf x init h' h hu, eq_ix0 (Shape.Idx.first hu)]
  have e : (x ∘ h.lift (ix1 t)) = fun s : Fin b => x (ix2 t s) := funext fun s => congrArg x (lift_last_ix2 h t s)
  rw [e]
  rfl

end Idealize.ShloMosaic.ValueIdx
-- ==== Proof.RefSoftmax.lean ====
/-
  The reference's bias and log-softmax against the kernel's row-wise log-softmax.

  With z (r, s) the second aggregate plus the bias, the called log-softmax subtracts from every entry its row's largest
  entry (a maximum started from the least float, compared with it once more) and then the logarithm of the row's sum
  of exponentials of the shifted entries (a sum started from zero): entry by entry the function `lsmRow` of the row.
-/
import proofs.«174868_j60722247631127_2_alg».proof.Proof.RefRead
import proofs.«174868_j60722247631127_2_alg».proof.Proof.Region2
import proofs.«174868_j60722247631127_2_alg».proof.Proof.LibHostRows
import Idealize.ShloMosaic.Lib.ValueLayout

set_option maxRecDepth 16384

noncomputable section

namespace Cert.ReferenceIdeal.RefValue

open Cert.ReferenceIdeal Cert.ReferenceIdeal.ReadP
open Idealize.ShloMosaic Idealize.ShloMosaic.ValueIdx
open Cert.KernelIdeal.Hand (logSoftmax40 lsmRow rowTop)
open scoped BigOperators

variable (x0 : (⟨S50000x128, .f32⟩ : BufTy).Contents (Elt Ideal)) (x1 : (⟨S2x625000, .i32⟩ : BufTy).Contents (Elt Ideal)) (x2 : (⟨S128x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal))

/-! ## Bias and the log-softmax -/

/-- The second aggregate with the bias added, at (r, s); the bias taken as a row. -/
theorem biased_at (r : Fin 50000) (s : Fin 40) : val_main_v61 (F := Ideal) x0 x1 x2 x3 x4 x5 (ix2 r s)
    = val_main_v58 (F := Ideal) x0 x1 x2 x3 x4 (ix2 r s) + (shapeCast Cert.KernelIdeal.S1x40 x5 Cert.KernelIdeal.Facts₀.shapeCasts_S40_S1x40) (ix2 (0 : Fin 1) s) := by
  have hb : idx_main_v59 (idx_main_v60 (ix2 r s)) = ix1 s := funext fun a => Fin.ext (by match a with | ⟨0, _⟩ => rfl)
  rw [val_main_v61_apply, val_main_v60_apply, val_main_v59_apply, hb, shapeCast_a_1a_apply]
  generalize val_main_v58 (F := Ideal) x0 x1 x2 x3 x4 = A
  rfl

/-- Row r's largest entry, as the reference computes it. -/
theorem top_at (r : Fin 50000) : val_main_call1_v2 (F := Ideal) x0 x1 x2 x3 x4 x5 (ix1 r)
    = rowTop (fun s => val_main_v61 (F := Ideal) x0 x1 x2 x3 x4 x5 (ix2 r s)) := by
  rw [val_main_call1_v2_apply, val_main_call1_v1_apply, val_main_call1_cst_0_apply]
  unfold val_main_call1_v0 rowTop
  generalize val_main_v61 (F := Ideal) x0 x1 x2 x3 x4 x5 = Z
  rw [hostRowMax_apply Z (val_main_call1_cst (F := Ideal)) Cert.ReferenceIdeal.Facts₀.reducesTo_S50000x40_S50000_d1 (by decide) Cert.ReferenceIdeal.Facts₀.h_S_ r]
  rfl

/-- Row r shifted down by its largest entry, at column s. -/
theorem shift_at (r : Fin 50000) (s : Fin 40) : val_main_call1_v5 (F := Ideal) x0 x1 x2 x3 x4 x5 (ix2 r s)
    = val_main_v61 (F := Ideal) x0 x1 x2 x3 x4 x5 (ix2 r s) - rowTop (fun s' => val_main_v61 (F := Ideal) x0 x1 x2 x3 x4 x5 (ix2 r s')) := by
  have h4 : idx_main_call1_v4 (ix2 r s) = ix2 r (0 : Fin 1) := funext fun a => Fin.ext (by match a with | ⟨0, _⟩ => rfl | ⟨1, _⟩ => rfl)
  have h3 : idx_main_call1_v3 (ix2 r (0 : Fin 1)) = ix1 r := funext fun a => Fin.ext (by match a with | ⟨0, _⟩ => rfl)
  rw [val_main_call1_v5_apply, val_main_call1_v4_apply, h4, val_main_call1_v3_apply, h3, top_at]
  generalize val_main_v61 (F := Ideal) x0 x1 x2 x3 x4 x5 = Z
  rfl

/-- The logarithm of row r's sum of exponentials, at any column. -/
theorem logsum_at (r : Fin 50000) (q : Fin 40) : val_main_call1_v10 (F := Ideal) x0 x1 x2 x3 x4 x5 (ix2 r q)
    = Ideal.log (∑ s : Fin 40, Ideal.exp (val_main_call1_v5 (F := Ideal) x0 x1 x2 x3 x4 x5 (ix2 r s))) := by
  have h10 : idx_main_call1_v10 (ix2 r q) = ix2 r (0 : Fin 1) := funext fun a => Fin.ext (by match a with | ⟨0, _⟩ => rfl | ⟨1, _⟩ => rfl)
  have h8 : idx_main_call1_v8 (ix2 r (0 : Fin 1)) = ix1 r := funext fun a => Fin.ext (by match a with | ⟨0, _⟩ => rfl)
  have h7 : ∀ k : Fin 40, idx_main_call1_v7 (ix1 r) k = ix2 r k := fun k => funext fun a => Fin.ext (by match a with | ⟨0, _⟩ => rfl | ⟨1, _⟩ => rfl)
  rw [val_main_call1_v10_apply, h10, val_main_call1_v9_apply, val_main_call1_v8_apply, h8, val_main_call1_v7_apply,
    val_main_call1_cst_1_apply, Ideal.hostUnary_log_def, Ideal.ofBits_def, Ideal.ofBits_zero_f32, zero_add]
  refine congrArg Ideal.log (Finset.sum_congr rfl fun k _ => ?_)
  rw [val_main_call1_v6_apply, Ideal.hostUnary_exp_def, h7 k]

/-- Bias and the reference's log-softmax: the row-wise log-softmax of the second aggregate plus the bias row. -/
theorem final_logsoftmax : ∀ i, val_main_v62 (F := Ideal) x0 x1 x2 x3 x4 x5 i = logSoftmax40 (val_main_v58 (F := Ideal) x0 x1 x2 x3 x4) (shapeCast Cert.KernelIdeal.S1x40 x5 Cert.KernelIdeal.Facts₀.shapeCasts_S40_S1x40) i := fun i => by
  obtain ⟨r, q, rfl⟩ : ∃ (r : Fin 50000) (q : Fin 40), i = ix2 r q := ⟨i 0, i 1, eq_ix2 i⟩
  rw [val_main_v62_apply, logsum_at]
  simp only [shift_at, biased_at]
  generalize val_main_v58 (F := Ideal) x0 x1 x2 x3 x4 = A
  rfl

end Cert.ReferenceIdeal.RefValue

end
-- ==== Proof.RefValue.lean ====
/-
  The reference's result is the kernel's function of the same arguments: the stages of RefLayers and RefSoftmax put
  together in the order the program applies them.
-/
import proofs.«174868_j60722247631127_2_alg».proof.Proof.RefLayers
import proofs.«174868_j60722247631127_2_alg».proof.Proof.RefSoftmax
import proofs.«174868_j60722247631127_2_alg».proof.Proof.KValue

set_option maxRecDepth 16384

noncomputable section

namespace Cert.ReferenceIdeal.RefValue

open Cert.ReferenceIdeal Cert.ReferenceIdeal.ReadP
open Idealize.ShloMosaic Idealize.ShloMosaic.ValueIdx
open Cert.KernelIdeal.Hand (linear128 hidden40 logSoftmax40 lsmRow rowTop aggregate128 aggregate40 srcOf dstOf weightOf kernelOut)
open scoped BigOperators

variable (x0 : (⟨S50000x128, .f32⟩ : BufTy).Contents (Elt Ideal)) (x1 : (⟨S2x625000, .i32⟩ : BufTy).Contents (Elt Ideal)) (x2 : (⟨S128x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal))

/-! ## The whole reference -/

/-- The reference's result is the kernel's function of the same arguments. -/
theorem reference_value : val_main_v62 (F := Ideal) x0 x1 x2 x3 x4 x5 = kernelOut x0 x1 x2 x3 x4 x5 := by
  have h1 : val_main_v27 (F := Ideal) x0 x2 = linear128 x0 x2 := funext (first_linear x0 x2)
  have h3 : val_main_v45 (F := Ideal) x0 x1 x2 x3 x4 = hidden40 (val_main_v40 (F := Ideal) x0 x1 x2) (shapeCast Cert.KernelIdeal.S1x128 x3 Cert.KernelIdeal.Facts₀.shapeCasts_S128_S1x128) x4 := funext (second_linear x0 x1 x2 x3 x4)
  funext i
  rw [final_logsoftmax, second_aggregate, h3, first_aggregate, h1, edges_src, edges_dst, edges_weight]
  rfl

end Cert.ReferenceIdeal.RefValue

end
-- ==== Proof.lean ====
/-
  A two-layer graph convolution with a row-wise log-softmax: the tiled kernel against the plain reference, on the
  extended reals.

  Both programs build the same edge list (the given edges followed by one self-loop per node), the same symmetric
  normalisation (the product of the inverse square roots of the two ends' degrees) and the same aggregation step (look
  up each edge's source row, scale it by the edge's weight, add it into the target row). Between these shared host
  steps the kernel computes, ten row blocks at a time, what the reference computes on whole arrays: the product x·W1;
  then max (a + b1, 0)·W2; then the log-softmax of each row of a + b2. A change of float format is the identity on the
  extended reals, a matrix product is a finite sum whatever the tiling, and a row block of a row-wise function is the
  function of the row block, so each kernel region's array is the reference's stage, entry by entry, and the two
  results are one function of the arguments. No finiteness of the inputs is used.

  The kernel's run is read through its six segments (KRun, Region0–2, Stretch, KValue); the reference's run and its
  stages are RefRun and RefRead; RefValue identifies the stages. The frames of the two kernel programs are the
  generated ones; the reference's frame is its run with the result dropped; the ideal pass rewrote nothing.
-/
import proofs.«174868_j60722247631127_2_alg».proof.Defs
import proofs.«174868_j60722247631127_2_alg».proof.Proof.Gen.Kernel
import proofs.«174868_j60722247631127_2_alg».proof.Proof.Gen.Kernel.Skeleton
import proofs.«174868_j60722247631127_2_alg».proof.Proof.Gen.Kernel.Launch
import proofs.«174868_j60722247631127_2_alg».proof.Proof.Gen.Kernel.Points
import proofs.«174868_j60722247631127_2_alg».proof.Proof.Gen.Kernel.Frame
import proofs.«174868_j60722247631127_2_alg».proof.Proof.Gen.KernelIdeal
import proofs.«174868_j60722247631127_2_alg».proof.Proof.Gen.KernelIdeal.Skeleton
import proofs.«174868_j60722247631127_2_alg».proof.Proof.Gen.KernelIdeal.Launch
import proofs.«174868_j60722247631127_2_alg».proof.Proof.Gen.KernelIdeal.Points
import proofs.«174868_j60722247631127_2_alg».proof.Proof.Gen.KernelIdeal.Frame
import proofs.«174868_j60722247631127_2_alg».proof.Proof.Gen.ReferenceIdeal
import proofs.«174868_j60722247631127_2_alg».proof.Proof.Gen.Pre_finite_inputs
import proofs.«174868_j60722247631127_2_alg».proof.Proof.KRun
import proofs.«174868_j60722247631127_2_alg».proof.Proof.KValue
import proofs.«174868_j60722247631127_2_alg».proof.Proof.RefRun
import proofs.«174868_j60722247631127_2_alg».proof.Proof.RefRead
import proofs.«174868_j60722247631127_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the same result array: the kernel's at
    `kernelOut` of its arguments (the six segments read back), the reference's at its composed term, which is
    `kernelOut` of its own arguments stage by stage. -/
theorem algebraic : Cert.algebraic_KernelIdeal_ReferenceIdeal := by
  intro m ρ m' ρ' _ hagree
  refine ⟨fun c => Cert.KernelIdeal.Hand.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.kernel_value m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    rw [Cert.ReferenceIdeal.ReadP.val_main_v62_eq, Cert.ReferenceIdeal.RefValue.reference_value, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
